-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x512x512 : Shape := ⟨4, ![16, 9, 512, 512]⟩
abbrev S16x1x512x512 : Shape := ⟨4, ![16, 1, 512, 512]⟩
abbrev S_ : Shape := ⟨0, ![]⟩

class Facts : Prop where
  bcast_S_S16x9x512x512 : S_.BroadcastsInDim S16x9x512x512 (![] : Fin 0 → Fin S16x9x512x512.rank)
  reducesTo_S16x9x512x512_S_d0_1_2_3 : S16x9x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x9x512x512 .f32) (main_arg1 : FVec F S16x1x512x512 .f32) : IVec S_ 1 :=
  let main_v0 : FVec F S16x9x512x512 .f32 := Host.absf main_arg0
  let main_cst : FVec F S_ .f32 := constant S_ .f32 0x7F800000#32
  let main_v1 : FVec F S16x9x512x512 .f32 := broadcastInDim S16x9x512x512 ![] bcast_S_S16x9x512x512 main_cst
  let main_v2 : IVec S16x9x512x512 1 := cmpf .olt main_v0 main_v1
  let main_c : IVec S_ 1 := constantI S_ 1 1#1
  let main_v3 : IVec S_ 1 := (fun x v => Host.reduce IntOp.andi x v reducesTo_S16x9x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x9x512x512 : Shape := ⟨4, ![16, 9, 512, 512]⟩
abbrev S16x1x512x512 : Shape := ⟨4, ![16, 1, 512, 512]⟩
abbrev S1x1x512x512 : Shape := ⟨4, ![1, 1, 512, 512]⟩
abbrev S1x9x512x512 : Shape := ⟨4, ![1, 9, 512, 512]⟩
abbrev S514x514 : Shape := ⟨2, ![514, 514]⟩
abbrev S512x512 : Shape := ⟨2, ![512, 512]⟩
abbrev S514x512 : Shape := ⟨2, ![514, 512]⟩

abbrev nBuf : Space → Nat
  | .hbm => 3
  | .vmem => 7
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .hbm, ⟨2, _⟩ => ⟨S16x1x512x512, .f32⟩
  | .local _ .vmem, ⟨0, _⟩ => ⟨S1x1x512x512, .f32⟩
  | .local _ .vmem, ⟨1, _⟩ => ⟨S1x1x512x512, .f32⟩
  | .local _ .vmem, ⟨2, _⟩ => ⟨S1x9x512x512, .f32⟩
  | .local _ .vmem, ⟨3, _⟩ => ⟨S1x9x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S514x514, .f32⟩
  | _, _ => ⟨S16x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S514x514_S514x514_0_0 : ∀ a, (![0, 0] : Fin 2 → Nat) a + S514x514.size a ≤ S514x514.size a
  h_S514x514 : 0 < S514x514.numel
  shapeCasts_S514x514_S514x514 : S514x514.ShapeCasts S514x514
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  inb_S514x514_S512x512_1_1 : ∀ a, (![1, 1] : Fin 2 → Nat) a + S512x512.size a ≤ S514x514.size a
  h_S512x512 : 0 < S512x512.numel
  shapeCasts_S512x512_S512x512 : S512x512.ShapeCasts S512x512
  shapeCasts_S512x512_S1x1x512x512 : S512x512.ShapeCasts S1x1x512x512
  inb_S514x514_S514x512_0_0 : ∀ a, (![0, 0] : Fin 2 → Nat) a + S514x512.size a ≤ S514x514.size a
  h_S514x512 : 0 < S514x512.numel
  slices_S514x512_o0_0_S512x512 : S514x512.Slices ![0, 0] S512x512
  inb_S1x9x512x512_S1x1x512x512_0_0_0_0 : ∀ a, (![0, 0, 0, 0] : Fin 4 → Nat) a + S1x1x512x512.size a ≤ S1x9x512x512.size a
  slices_S514x512_o1_0_S512x512 : S514x512.Slices ![1, 0] S512x512
  inb_S1x9x512x512_S1x1x512x512_0_1_0_0 : ∀ a, (![0, 1, 0, 0] : Fin 4 → Nat) a + S1x1x512x512.size a ≤ S1x9x512x512.size a
  slices_S514x512_o2_0_S512x512 : S514x512.Slices ![2, 0] S512x512
  inb_S1x9x512x512_S1x1x512x512_0_2_0_0 : ∀ a, (![0, 2, 0, 0] : Fin 4 → Nat) a + S1x1x512x512.size a ≤ S1x9x512x512.size a
  inb_S514x514_S514x512_0_1 : ∀ a, (![0, 1] : Fin 2 → Nat) a + S514x512.size a ≤ S514x514.size a
  inb_S1x9x512x512_S1x1x512x512_0_3_0_0 : ∀ a, (![0, 3, 0, 0] : Fin 4 → Nat) a + S1x1x512x512.size a ≤ S1x9x512x512.size a
  inb_S1x9x512x512_S1x1x512x512_0_4_0_0 : ∀ a, (![0, 4, 0, 0] : Fin 4 → Nat) a + S1x1x512x512.size a ≤ S1x9x512x512.size a
  inb_S1x9x512x512_S1x1x512x512_0_5_0_0 : ∀ a, (![0, 5, 0, 0] : Fin 4 → Nat) a + S1x1x512x512.size a ≤ S1x9x512x512.size a
  inb_S514x514_S514x512_0_2 : ∀ a, (![0, 2] : Fin 2 → Nat) a + S514x512.size a ≤ S514x514.size a
  inb_S1x9x512x512_S1x1x512x512_0_6_0_0 : ∀ a, (![0, 6, 0, 0] : Fin 4 → Nat) a + S1x1x512x512.size a ≤ S1x9x512x512.size a
  inb_S1x9x512x512_S1x1x512x512_0_7_0_0 : ∀ a, (![0, 7, 0, 0] : Fin 4 → Nat) a + S1x1x512x512.size a ≤ S1x9x512x512.size a
  inb_S1x9x512x512_S1x1x512x512_0_8_0_0 : ∀ a, (![0, 8, 0, 0] : Fin 4 → Nat) a + S1x1x512x512.size a ≤ S1x9x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x1x512x512.size a
  hwx0_0 : ∀ i : grid0.Coords, EltTy.bits .f32 = 32 ∨ (Rect.block (s := S16x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x512x512.size a ≤ S16x9x512x512.size a
  hwx0_1 : ∀ i : grid0.Coords, EltTy.bits .f32 = 32 ∨ (Rect.block (s := S16x9x512x512) S1x9x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)

variable [Facts₀]

abbrev win0_0 : Pipeline.Window sig grid0 :=
  Pipeline.Window.ofSpec (Memref.whole main_arg1) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x9x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x9x512x512 : Shape := ⟨4, ![16, 9, 512, 512]⟩
abbrev S16x1x512x512 : Shape := ⟨4, ![16, 1, 512, 512]⟩
abbrev S_ : Shape := ⟨0, ![]⟩
abbrev S16x1x514x514 : Shape := ⟨4, ![16, 1, 514, 514]⟩

abbrev nBuf : Space → Nat
  | .hbm => 43
  | .vmem => 0
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .hbm, ⟨2, _⟩ => ⟨S_, .i32⟩
  | .hbm, ⟨3, _⟩ => ⟨S_, .f32⟩
  | .hbm, ⟨4, _⟩ => ⟨S16x1x514x514, .f32⟩
  | .hbm, ⟨5, _⟩ => ⟨S_, .f32⟩
  | .hbm, ⟨6, _⟩ => ⟨S16x1x512x512, .f32⟩
  | .hbm, ⟨7, _⟩ => ⟨S16x1x512x512, .f32⟩
  | .hbm, ⟨8, _⟩ => ⟨S16x1x512x512, .f32⟩
  | .hbm, ⟨9, _⟩ => ⟨S16x1x512x512, .f32⟩
  | .hbm, ⟨10, _⟩ => ⟨S16x1x512x512, .f32⟩
  | .hbm, ⟨11, _⟩ => ⟨S16x1x512x512, .f32⟩
  | .hbm, ⟨12, _⟩ => ⟨S16x1x512x512, .f32⟩
  | .hbm, ⟨13, _⟩ => ⟨S16x1x512x512, .f32⟩
  | .hbm, ⟨14, _⟩ => ⟨S16x1x512x512, .f32⟩
  | .hbm, ⟨15, _⟩ => ⟨S16x1x512x512, .f32⟩
  | .hbm, ⟨16, _⟩ => ⟨S16x1x512x512, .f32⟩
  | .hbm, ⟨17, _⟩ => ⟨S16x1x512x512, .f32⟩
  | .hbm, ⟨18, _⟩ => ⟨S16x1x512x512, .f32⟩
  | .hbm, ⟨19, _⟩ => ⟨S16x1x512x512, .f32⟩
  | .hbm, ⟨20, _⟩ => ⟨S16x1x512x512, .f32⟩
  | .hbm, ⟨21, _⟩ => ⟨S16x1x512x512, .f32⟩
  | .hbm, ⟨22, _⟩ => ⟨S16x1x512x512, .f32⟩
  | .hbm, ⟨23, _⟩ => ⟨S16x1x512x512, .f32⟩
  | .hbm, ⟨24, _⟩ => ⟨S16x1x512x512, .f32⟩
  | .hbm, ⟨25, _⟩ => ⟨S16x1x512x512, .f32⟩
  | .hbm, ⟨26, _⟩ => ⟨S16x1x512x512, .f32⟩
  | .hbm, ⟨27, _⟩ => ⟨S16x1x512x512, .f32⟩
  | .hbm, ⟨28, _⟩ => ⟨S16x1x512x512, .f32⟩
  | .hbm, ⟨29, _⟩ => ⟨S16x1x512x512, .f32⟩
  | .hbm, ⟨30, _⟩ => ⟨S16x1x512x512, .f32⟩
  | .hbm, ⟨31, _⟩ => ⟨S16x1x512x512, .f32⟩
  | .hbm, ⟨32, _⟩ => ⟨S16x1x512x512, .f32⟩
  | .hbm, ⟨33, _⟩ => ⟨S16x1x512x512, .f32⟩
  | .hbm, ⟨34, _⟩ => ⟨S16x1x512x512, .f32⟩
  | .hbm, ⟨35, _⟩ => ⟨S16x1x512x512, .f32⟩
  | .hbm, ⟨36, _⟩ => ⟨S16x1x512x512, .f32⟩
  | .hbm, ⟨37, _⟩ => ⟨S16x1x512x512, .f32⟩
  | .hbm, ⟨38, _⟩ => ⟨S16x1x512x512, .f32⟩
  | .hbm, ⟨39, _⟩ => ⟨S16x1x512x512, .f32⟩
  | .hbm, ⟨40, _⟩ => ⟨S16x1x512x512, .f32⟩
  | .hbm, ⟨41, _⟩ => ⟨S16x1x512x512, .f32⟩
  | .hbm, ⟨42, _⟩ => ⟨S16x1x512x512, .f32⟩
  | _, _ => ⟨S16x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  pads_S16x1x512x512_S16x1x514x514_000_000_110_110 : S16x1x512x512.Pads (![0, 0, 1, 1] : Fin 4 → Nat) ![0, 0, 1, 1] ![0, 0, 0, 0] S16x1x514x514
  h_S_ : 0 < S_.numel
  bcast_S_S16x1x512x512 : S_.BroadcastsInDim S16x1x512x512 (![] : Fin 0 → Fin S16x1x512x512.rank)
  slices_S16x1x514x514_S16x1x512x512_0_0_0_0 : S16x1x514x514.Slices ![0, 0, 0, 0] S16x1x512x512
  slices_S16x9x512x512_S16x1x512x512_0_0_0_0 : S16x9x512x512.Slices ![0, 0, 0, 0] S16x1x512x512
  slices_S16x1x514x514_S16x1x512x512_0_0_1_0 : S16x1x514x514.Slices ![0, 0, 1, 0] S16x1x512x512
  slices_S16x9x512x512_S16x1x512x512_0_1_0_0 : S16x9x512x512.Slices ![0, 1, 0, 0] S16x1x512x512
  slices_S16x1x514x514_S16x1x512x512_0_0_2_0 : S16x1x514x514.Slices ![0, 0, 2, 0] S16x1x512x512
  slices_S16x9x512x512_S16x1x512x512_0_2_0_0 : S16x9x512x512.Slices ![0, 2, 0, 0] S16x1x512x512
  slices_S16x1x514x514_S16x1x512x512_0_0_0_1 : S16x1x514x514.Slices ![0, 0, 0, 1] S16x1x512x512
  slices_S16x9x512x512_S16x1x512x512_0_3_0_0 : S16x9x512x512.Slices ![0, 3, 0, 0] S16x1x512x512
  slices_S16x1x514x514_S16x1x512x512_0_0_1_1 : S16x1x514x514.Slices ![0, 0, 1, 1] S16x1x512x512
  slices_S16x9x512x512_S16x1x512x512_0_4_0_0 : S16x9x512x512.Slices ![0, 4, 0, 0] S16x1x512x512
  slices_S16x1x514x514_S16x1x512x512_0_0_2_1 : S16x1x514x514.Slices ![0, 0, 2, 1] S16x1x512x512
  slices_S16x9x512x512_S16x1x512x512_0_5_0_0 : S16x9x512x512.Slices ![0, 5, 0, 0] S16x1x512x512
  slices_S16x1x514x514_S16x1x512x512_0_0_0_2 : S16x1x514x514.Slices ![0, 0, 0, 2] S16x1x512x512
  slices_S16x9x512x512_S16x1x512x512_0_6_0_0 : S16x9x512x512.Slices ![0, 6, 0, 0] S16x1x512x512
  slices_S16x1x514x514_S16x1x512x512_0_0_1_2 : S16x1x514x514.Slices ![0, 0, 1, 2] S16x1x512x512
  slices_S16x9x512x512_S16x1x512x512_0_7_0_0 : S16x9x512x512.Slices ![0, 7, 0, 0] S16x1x512x512
  slices_S16x1x514x514_S16x1x512x512_0_0_2_2 : S16x1x514x514.Slices ![0, 0, 2, 2] S16x1x512x512
  slices_S16x9x512x512_S16x1x512x512_0_8_0_0 : S16x9x512x512.Slices ![0, 8, 0, 0] S16x1x512x512

variable [Facts₀]

class Facts : Prop extends Facts₀ where

variable [Facts]
-- ==== Proof.KernelChain.lean ====
/-
  The kernel's body at one grid point, as a chain of nine partial sums — for any reading `F` of the floats.

  At one grid point the body sees one image `x0 : [1, 1, 512, 512]` and that image's weights
  `x1 : [1, 9, 512, 512]`. It fills a 514 × 514 scratch picture with zeros and writes the image into its interior
  (rows and columns `1 … 512`), zeroes the output block, and then, for each of three column offsets `dc`, loads the
  514 × 512 window of the scratch picture that starts at column `dc`, and for each of three row offsets `dr` adds to
  the output block the 512 × 512 part of that window starting at row `dr`, multiplied by weight `3 · dc + dr`. Every
  read-back of the output block between two additions reads what the addition before stored, whole; so what the
  block ends holding is the ninth partial sum, and the scratch picture it was computed from depends on `x0` alone
  (it is rewritten whole at every point: nothing is carried from one grid point to the next).
-/
import proofs.«109072_j62045097558442_2_alg».proof.Proof.Gen.KernelIdeal.Frame
import Idealize.ShloMosaic.Lib.Pipeline.Value

set_option maxRecDepth 16384

noncomputable section

namespace Cert.PixelConv

open Cert.KernelIdeal Cert.KernelIdeal.Gen
open Idealize.ShloMosaic Idealize.ShloMosaic.TcCoe Idealize.ShloMosaic.Tactic Idealize.SL.Sem

variable {F : FTy → Type} [FloatOps F]

/-- The scratch picture after the zero fill and the write of the image into its interior: the later write wins
    where it reaches, the fill shows elsewhere. -/
def scratch (x0 : Vec F S1x1x512x512 .f32) : S514x514.Idx → Elt F .f32 :=
  View.canon
    [(⟨Rect.unit ![1, 1] ![512, 512] inb_S514x514_S512x512_1_1,
        k0_pay3 (View.ld x0 (Rect.unit ![0, 0, 0, 0] ![1, 1, 512, 512] inb_S1x1x512x512_S1x1x512x512_0_0_0_0))⟩ :
          View.Piece (Elt F) S514x514 .f32),
      ⟨Rect.unit ![0, 0] ![514, 514] inb_S514x514_S514x514_0_0, k0_pay2⟩]

/-- The 514 × 512 window of the scratch picture at offsets `off` (the body uses column offsets 0, 1, 2). -/
def window (x0 : Vec F S1x1x512x512 .f32) (off : Fin 2 → Nat)
    (inb : ∀ a, off a + (![514, 512] : Fin 2 → Nat) a ≤ S514x514.size a) : Vec F S514x512 .f32 :=
  fun j => scratch x0 ((Rect.unit (s := S514x514) off ![514, 512] inb).idx j)

/-- One weight plane of the weights' block: the `[1, 1, 512, 512]` part at offsets `off` (the body uses
    `(0, t, 0, 0)` for `t = 0 … 8`). -/
def weight (x1 : Vec F S1x9x512x512 .f32) (off : Fin 4 → Nat)
    (inb : ∀ a, off a + (![1, 1, 512, 512] : Fin 4 → Nat) a ≤ S1x9x512x512.size a) : Vec F S1x1x512x512 .f32 :=
  View.ld x1 (Rect.unit (s := S1x9x512x512) off ![1, 1, 512, 512] inb)

/-- The partial sums, in the order the body forms them: `sum1` is zero plus the first term, `sum9` the result. -/
def sum1 (x0 : Vec F S1x1x512x512 .f32) (x1 : Vec F S1x9x512x512 .f32) : Vec F S1x1x512x512 .f32 :=
  k0_pay5 (window x0 ![0, 0] inb_S514x514_S514x512_0_0) k0_pay4 (weight x1 ![0, 0, 0, 0] inb_S1x9x512x512_S1x1x512x512_0_0_0_0)
def sum2 (x0 : Vec F S1x1x512x512 .f32) (x1 : Vec F S1x9x512x512 .f32) : Vec F S1x1x512x512 .f32 :=
  k0_pay7 (k0_pay6 (window x0 ![0, 0] inb_S514x514_S514x512_0_0)) (sum1 x0 x1) (weight x1 ![0, 1, 0, 0] inb_S1x9x512x512_S1x1x512x512_0_1_0_0)
def sum3 (x0 : Vec F S1x1x512x512 .f32) (x1 : Vec F S1x9x512x512 .f32) : Vec F S1x1x512x512 .f32 :=
  k0_pay8 (window x0 ![0, 0] inb_S514x514_S514x512_0_0) (sum2 x0 x1) (weight x1 ![0, 2, 0, 0] inb_S1x9x512x512_S1x1x512x512_0_2_0_0)
def sum4 (x0 : Vec F S1x1x512x512 .f32) (x1 : Vec F S1x9x512x512 .f32) : Vec F S1x1x512x512 .f32 :=
  k0_pay11 (k0_pay9 (sum3 x0 x1))
    (k0_pay10 (window x0 ![0, 1] inb_S514x514_S514x512_0_1) (weight x1 ![0, 3, 0, 0] inb_S1x9x512x512_S1x1x512x512_0_3_0_0))
def sum5 (x0 : Vec F S1x1x512x512 .f32) (x1 : Vec F S1x9x512x512 .f32) : Vec F S1x1x512x512 .f32 :=
  k0_pay12 (window x0 ![0, 1] inb_S514x514_S514x512_0_1) (sum4 x0 x1) (weight x1 ![0, 4, 0, 0] inb_S1x9x512x512_S1x1x512x512_0_4_0_0)
def sum6 (x0 : Vec F S1x1x512x512 .f32) (x1 : Vec F S1x9x512x512 .f32) : Vec F S1x1x512x512 .f32 :=
  k0_pay13 (window x0 ![0, 1] inb_S514x514_S514x512_0_1) (sum5 x0 x1) (weight x1 ![0, 5, 0, 0] inb_S1x9x512x512_S1x1x512x512_0_5_0_0)
def sum7 (x0 : Vec F S1x1x512x512 .f32) (x1 : Vec F S1x9x512x512 .f32) : Vec F S1x1x512x512 .f32 :=
  k0_pay15 (k0_pay14 (window x0 ![0, 2] inb_S514x514_S514x512_0_2)) (sum6 x0 x1) (weight x1 ![0, 6, 0, 0] inb_S1x9x512x512_S1x1x512x512_0_6_0_0)
def sum8 (x0 : Vec F S1x1x512x512 .f32) (x1 : Vec F S1x9x512x512 .f32) : Vec F S1x1x512x512 .f32 :=
  k0_pay16 (window x0 ![0, 2] inb_S514x514_S514x512_0_2) (sum7 x0 x1) (weight x1 ![0, 7, 0, 0] inb_S1x9x512x512_S1x1x512x512_0_7_0_0)
def sum9 (x0 : Vec F S1x1x512x512 .f32) (x1 : Vec F S1x9x512x512 .f32) : Vec F S1x1x512x512 .f32 :=
  k0_pay1 (k0_pay17 (window x0 ![0, 2] inb_S514x514_S514x512_0_2) (sum8 x0 x1) (weight x1 ![0, 8, 0, 0] inb_S1x9x512x512_S1x1x512x512_0_8_0_0))

/-- What the body leaves in the output block is the ninth partial sum of its two input blocks: the last of the ten
    stores covers the block, each read-back of the block reads the store before it, each read of the scratch
    picture reads the fill and the interior write, and the reads of the inputs read the inputs. -/
theorem out_eq_sum9 (c : Dev nD) (i : grid0.Coords) (arg1 : Memref sig .tc .vmem S1x1x512x512 .f32) (harg1 : arg1.IsWhole)
    (arg2 : Memref sig .tc .vmem S1x9x512x512 .f32) (harg2 : arg2.IsWhole) (arg3 : Memref sig .tc .vmem S1x1x512x512 .f32)
    (harg3 : arg3.IsWhole) (arg4 : Memref sig .tc .vmem S514x514 .f32) (harg4 : arg4.IsWhole)
    (x0 : Vec F S1x1x512x512 .f32) (x1 : Vec F S1x9x512x512 .f32) :
    out0_A_2 (F := F) c i arg1 harg1 arg2 harg2 arg3 harg3 arg4 harg4 x0 x1 = sum9 x0 x1 := by
  unfold out0_A_2
  rw [View.read_writes_eq_canon _ _ _ (cover0_A_2 c i arg1 harg1 arg2 harg2 arg3 harg3 arg4 harg4 x0 x1)]
  unfold kernelRun0_A
  dsimp only
  rw [View.canon_cons_unit_zero (by funext a; fin_cases a <;> rfl)]
  sl_unfold_words
  simp only [↓View.readCov_cons_toLoadRect, View.readCov_eq_canon', View.readAt_eq_ld, harg1.read_unread, harg2.read_unread]
  rfl

end Cert.PixelConv

end
-- ==== Proof.Spec.lean ====
/-
  The function both programs compute, stated once and over no program.

  The inputs are a stack of sixteen images `img : [16, 1, 512, 512]` and, for every pixel of every image, its own
  nine weights `ker : [16, 9, 512, 512]`. The result at pixel `(r, c)` of image `b` is the weighted sum of the
  3 × 3 neighbourhood of that pixel in the image extended by one ring of zeros: in the coordinates of the extended
  514 × 514 picture `P b`, whose pixel `(r + 1, c + 1)` is the image's pixel `(r, c)`, weight `t = 3 · dc + dr`
  goes with the pixel `dr` rows and `dc` columns after `(r, c)`:

      out b r c = ((…((0 + P b (r+0) (c+0) · ker b 0 r c) + P b (r+1) (c+0) · ker b 1 r c) + …) + P b (r+2) (c+2) · ker b 8 r c

  The sum is written in the one order and grouping in which both programs add it up, so that nothing about
  addition on the extended reals (where `+∞ + −∞` is junk and sums do not regroup freely) is ever needed: the
  equality of the two programs holds for every input, finite or not.
-/
import Idealize.ShloMosaic.PureOps.Ideal
import Idealize.ShloMosaic.PureOps.Ideal.Laws
import Idealize.ShloMosaic.Lib.ValueIdx

noncomputable section

namespace Cert.PixelConv

open Idealize.ShloMosaic Idealize.ShloMosaic.ValueIdx

/-- The index type of the image stack (and of the result), and of the weights. -/
abbrev ImgIdx : Type := (⟨4, ![16, 1, 512, 512]⟩ : Shape).Idx
abbrev KerIdx : Type := (⟨4, ![16, 9, 512, 512]⟩ : Shape).Idx

/-- Image `b` extended by one ring of zeros, at row `r` and column `c` of the extended 514 × 514 picture: the
    image's pixel `(r − 1, c − 1)` when both coordinates lie in `1 … 512`, and zero on the ring (and beyond). -/
def padded (img : ImgIdx → EReal) (b : Fin 16) (r c : Nat) : EReal :=
  if h : (1 ≤ r ∧ r < 513) ∧ (1 ≤ c ∧ c < 513) then
    img (ix4 b (0 : Fin 1) (⟨r - 1, by omega⟩ : Fin 512) (⟨c - 1, by omega⟩ : Fin 512))
  else 0

theorem padded_inside (img : ImgIdx → EReal) (b : Fin 16) (r c : Nat) (hr : 1 ≤ r ∧ r < 513) (hc : 1 ≤ c ∧ c < 513) :
    padded img b r c = img (ix4 b (0 : Fin 1) (⟨r - 1, by omega⟩ : Fin 512) (⟨c - 1, by omega⟩ : Fin 512)) :=
  dif_pos ⟨hr, hc⟩

theorem padded_outside (img : ImgIdx → EReal) (b : Fin 16) (r c : Nat) (h : ¬((1 ≤ r ∧ r < 513) ∧ (1 ≤ c ∧ c < 513))) :
    padded img b r c = 0 :=
  dif_neg h

/-- The extended picture depends on its coordinates as numbers only, however they are spelt. -/
theorem padded_congr (img : ImgIdx → EReal) {b b' : Fin 16} {r r' c c' : Nat} (hb : b = b') (hr : r = r') (hc : c = c') :
    padded img b r c = padded img b' r' c' := by
  subst hb; subst hr; subst hc; rfl

/-- One term of the sum at result index `i = (b, 0, r, c)`: weight `t` times the extended image `dr` rows and
    `dc` columns after `(r, c)`. -/
def term (ker : KerIdx → EReal) (img : ImgIdx → EReal) (i : ImgIdx) (t : Fin 9) (dr dc : Nat) : EReal :=
  padded img (i 0) (dr + (i 2).val) (dc + (i 3).val) * ker (ix4 (i 0) t (i 2) (i 3))

/-- The result: the nine terms added to zero from the left, weight 0 first; weight `3 · dc + dr` looks `dr` rows
    and `dc` columns ahead. -/
def conv (ker : KerIdx → EReal) (img : ImgIdx → EReal) : ImgIdx → EReal := fun i =>
  0 + term ker img i 0 0 0 + term ker img i 1 1 0 + term ker img i 2 2 0
    + term ker img i 3 0 1 + term ker img i 4 1 1 + term ker img i 5 2 1
    + term ker img i 6 0 2 + term ker img i 7 1 2 + term ker img i 8 2 2

end Cert.PixelConv

end
-- ==== Proof.KernelPoint.lean ====
/-
  The kernel's ninth partial sum, read at one pixel, on the extended reals.

  Each of the body's nine steps views the previous partial sum and one weight plane as 512 × 512 pictures, takes the
  512 rows of a 514 × 512 window of the scratch picture that start at row `dr`, multiplies, adds, and views the sum
  as a `[1, 1, 512, 512]` block again. At pixel `(r, c)` that is

      new r c = old r c + window (dr + r) c · weight r c,

  the window at `(r', c)` is the scratch picture at `(r', dc + c)`, and the scratch picture is the image's block
  extended by a ring of zeros. When the two input blocks are image `b` of the stack and its weights, the ninth
  partial sum at `(r, c)` is therefore the specification's sum at `(b, 0, r, c)`, term by term, in the same order.
-/
import proofs.«109072_j62045097558442_2_alg».proof.Proof.KernelChain
import proofs.«109072_j62045097558442_2_alg».proof.Proof.Spec
import Idealize.ShloMosaic.Lib.ValueIdx
import Idealize.ShloMosaic.Lib.Pipeline.Value

set_option maxRecDepth 16384

noncomputable section

namespace Cert.PixelConv

open Cert.KernelIdeal Cert.KernelIdeal.Gen
open Idealize.ShloMosaic Idealize.ShloMosaic.ValueIdx

/-! ## Layout: a 512 × 512 picture and a `[1, 1, 512, 512]` block have the same entries in the same order -/

theorem plane_as_block {α : Type} (v : S512x512.Idx → α) (h : S512x512.ShapeCasts S1x1x512x512) (r c : Fin 512) :
    shapeCast S1x1x512x512 v h (ix4 (0 : Fin 1) (0 : Fin 1) r c) = v (ix2 r c) :=
  shapeCast_apply v h _ _ (by
    rw [Shape.rowMajor_val_two, Shape.rowMajor_val_four]
    show r.val * 512 + c.val = (((0 : ℕ) * 1 + 0) * 512 + r.val) * 512 + c.val
    omega)

theorem block_as_plane {α : Type} (v : S1x1x512x512.Idx → α) (h : S1x1x512x512.ShapeCasts S512x512) (r c : Fin 512) :
    shapeCast S512x512 v h (ix2 r c) = v (ix4 (0 : Fin 1) (0 : Fin 1) r c) :=
  shapeCast_apply v h _ _ (by
    rw [Shape.rowMajor_val_two, Shape.rowMajor_val_four]
    show (((0 : ℕ) * 1 + 0) * 512 + r.val) * 512 + c.val = r.val * 512 + c.val
    omega)

/-- All offsets zero, at rank two and at rank four. -/
theorem zero2 : (![0, 0] : Fin 2 → ℕ) = fun _ => 0 := funext fun a => by fin_cases a <;> rfl
theorem zero4 : (![0, 0, 0, 0] : Fin 4 → ℕ) = fun _ => 0 := funext fun a => by fin_cases a <;> rfl

/-- The 512 rows of a 514 × 512 window from row `dr` on. -/
theorem rows_from {α : Type} (v : S514x512.Idx → α) (dr : ℕ) (hdr : dr ≤ 2) (h : S514x512.Slices ![dr, 0] S512x512)
    (r c : Fin 512) :
    extractStridedSlice S512x512 ![dr, 0] v h (ix2 r c) = v (ix2 (⟨dr + r.val, by omega⟩ : Fin 514) c) :=
  extractStridedSlice_apply ![dr, 0] v h _ _ (fun a => by
    match a with
    | ⟨0, _⟩ => rfl
    | ⟨1, _⟩ => show c.val = 0 + c.val; omega)

/-! ## One step of the body at a pixel -/

/-- Add to the previous partial sum the window's rows from `dr` on times a weight plane: at pixel `(r, c)`. -/
theorem add_term (win : FVec Ideal S514x512 .f32) (prev wt : FVec Ideal S1x1x512x512 .f32) (dr : ℕ) (hdr : dr ≤ 2)
    (hs : S514x512.Slices ![dr, 0] S512x512) (h42 : S1x1x512x512.ShapeCasts S512x512)
    (h24 : S512x512.ShapeCasts S1x1x512x512) (r c : Fin 512) :
    (shapeCast S1x1x512x512
        (addf (F := Ideal) (φ := .f32) (shapeCast S512x512 prev h42)
          (mulf (F := Ideal) (φ := .f32) (extractStridedSlice S512x512 ![dr, 0] win hs) (shapeCast S512x512 wt h42))) h24 :
          FVec Ideal S1x1x512x512 .f32)
        (ix4 (0 : Fin 1) (0 : Fin 1) r c)
      = prev (ix4 (0 : Fin 1) (0 : Fin 1) r c)
        + win (ix2 (⟨dr + r.val, by omega⟩ : Fin 514) c) * wt (ix4 (0 : Fin 1) (0 : Fin 1) r c) := by
  rw [plane_as_block, addf_apply, mulf_apply, block_as_plane, block_as_plane, rows_from _ _ hdr]

/-! ## The body's reads at an index -/

/-- The output block as zeroed before the first step. -/
theorem zeroed_apply (r c : Fin 512) :
    (k0_pay4 (F := Ideal)) (ix4 (0 : Fin 1) (0 : Fin 1) r c) = 0 := by
  unfold k0_pay4
  rw [plane_as_block, broadcast_apply]
  exact Ideal.ofBits_zero_f32

/-- A weight plane of the weights' block at a pixel. -/
theorem weight_apply (x1 : Vec Ideal S1x9x512x512 .f32) (t : ℕ) (ht : t < 9)
    (inb : ∀ a, (![0, t, 0, 0] : Fin 4 → ℕ) a + (![1, 1, 512, 512] : Fin 4 → ℕ) a ≤ S1x9x512x512.size a) (r c : Fin 512) :
    weight x1 ![0, t, 0, 0] inb (ix4 (0 : Fin 1) (0 : Fin 1) r c) = x1 (ix4 (0 : Fin 1) (⟨t, ht⟩ : Fin 9) r c) := by
  unfold weight
  show x1 ((Rect.unit (s := S1x9x512x512) ![0, t, 0, 0] ![1, 1, 512, 512] inb).idx (ix4 (0 : Fin 1) (0 : Fin 1) r c)) = _
  refine congrArg x1 (funext fun a => Fin.ext ?_)
  match a with
  | ⟨0, _⟩ => show 0 + 1 * 0 = 0; omega
  | ⟨1, _⟩ => show t + 1 * 0 = t; omega
  | ⟨2, _⟩ => show 0 + 1 * r.val = r.val; omega
  | ⟨3, _⟩ => show 0 + 1 * c.val = c.val; omega

/-- The window of the scratch picture that starts at column `dc`. -/
theorem window_apply (x0 : Vec Ideal S1x1x512x512 .f32) (dc : ℕ) (hdc : dc ≤ 2)
    (inb : ∀ a, (![0, dc] : Fin 2 → ℕ) a + (![514, 512] : Fin 2 → ℕ) a ≤ S514x514.size a) (r : Fin 514) (c : Fin 512) :
    window x0 ![0, dc] inb (ix2 r c) = scratch x0 (ix2 r (⟨dc + c.val, by omega⟩ : Fin 514)) := by
  unfold window
  refine congrArg (scratch x0) (funext fun a => Fin.ext ?_)
  match a with
  | ⟨0, _⟩ => show 0 + 1 * r.val = r.val; omega
  | ⟨1, _⟩ => show dc + 1 * c.val = dc + c.val; omega

/-- The scratch picture is the image's block extended by a ring of zeros: the interior write reaches rows and
    columns `1 … 512` and wins there; the zero fill shows on the ring. -/
theorem scratch_apply (x0 : Vec Ideal S1x1x512x512 .f32) (img : ImgIdx → EReal) (b : Fin 16)
    (h0 : ∀ r c : Fin 512, x0 (ix4 (0 : Fin 1) (0 : Fin 1) r c) = img (ix4 b (0 : Fin 1) r c)) (r c : Fin 514) :
    scratch x0 (ix2 r c) = padded img b r.val c.val := by
  unfold scratch
  by_cases h : (1 ≤ r.val ∧ r.val < 513) ∧ (1 ≤ c.val ∧ c.val < 513)
  · have e : (ix2 r c : S514x514.Idx)
        = (Rect.unit (s := S514x514) ![1, 1] ![512, 512] inb_S514x514_S512x512_1_1).emb
            (ix2 (⟨r.val - 1, by omega⟩ : Fin 512) (⟨c.val - 1, by omega⟩ : Fin 512)) := by
      funext a; apply Fin.ext
      match a with
      | ⟨0, _⟩ => show r.val = 1 + 1 * (r.val - 1); omega
      | ⟨1, _⟩ => show c.val = 1 + 1 * (c.val - 1); omega
    rw [e, View.canon_cons_emb, padded_inside img b _ _ h.1 h.2]
    unfold k0_pay3
    rw [shapeCast_self, block_as_plane, View.ld_unit_zero (S := S1x1x512x512) zero4, h0]
  · have hn : (ix2 r c : S514x514.Idx) ∉ (Rect.unit (s := S514x514) ![1, 1] ![512, 512] inb_S514x514_S512x512_1_1).set := by
      intro hm
      have m0 : 1 ≤ r.val ∧ r.val < 1 + 512 := (Rect.mem_set_unit.mp hm) 0
      have m1 : 1 ≤ c.val ∧ c.val < 1 + 512 := (Rect.mem_set_unit.mp hm) 1
      exact h ⟨⟨m0.1, by omega⟩, ⟨m1.1, by omega⟩⟩
    rw [View.canon_cons_of_not_mem, View.canon_unit_zero (S := S514x514) zero2, padded_outside img b _ _ h]
    · unfold k0_pay2
      rw [shapeCast_self, broadcast_apply]
      exact Ideal.ofBits_zero_f32
    · exact hn

/-! ## The nine steps at a pixel -/

section Steps

variable (x0 : Vec Ideal S1x1x512x512 .f32) (x1 : Vec Ideal S1x9x512x512 .f32) (r c : Fin 512)

local notation "px" => ix4 (0 : Fin 1) (0 : Fin 1) r c

/-- The scratch picture `dr` rows and `dc` columns after `(r, c)`. -/
abbrev ahead (dr dc : ℕ) (hdr : dr ≤ 2) (hdc : dc ≤ 2) : EReal :=
  scratch x0 (ix2 (⟨dr + r.val, by omega⟩ : Fin 514) (⟨dc + c.val, by omega⟩ : Fin 514))

theorem sum1_apply : sum1 x0 x1 px = 0 + ahead x0 r c 0 0 (by omega) (by omega) * x1 (ix4 (0 : Fin 1) (⟨0, by omega⟩ : Fin 9) r c) := by
  unfold sum1 k0_pay5
  refine (add_term _ _ _ 0 (by omega) _ _ _ r c).trans ?_
  rw [zeroed_apply, window_apply x0 0 (by omega), weight_apply x1 0 (by omega)]

theorem sum2_apply : sum2 x0 x1 px = sum1 x0 x1 px + ahead x0 r c 1 0 (by omega) (by omega) * x1 (ix4 (0 : Fin 1) (⟨1, by omega⟩ : Fin 9) r c) := by
  unfold sum2 k0_pay7 k0_pay6
  refine (add_term _ _ _ 1 (by omega) _ _ _ r c).trans ?_
  rw [window_apply x0 0 (by omega), weight_apply x1 1 (by omega)]

theorem sum3_apply : sum3 x0 x1 px = sum2 x0 x1 px + ahead x0 r c 2 0 (by omega) (by omega) * x1 (ix4 (0 : Fin 1) (⟨2, by omega⟩ : Fin 9) r c) := by
  unfold sum3 k0_pay8
  refine (add_term _ _ _ 2 (by omega) _ _ _ r c).trans ?_
  rw [window_apply x0 0 (by omega), weight_apply x1 2 (by omega)]

theorem sum4_apply : sum4 x0 x1 px = sum3 x0 x1 px + ahead x0 r c 0 1 (by omega) (by omega) * x1 (ix4 (0 : Fin 1) (⟨3, by omega⟩ : Fin 9) r c) := by
  unfold sum4 k0_pay11 k0_pay9 k0_pay10
  refine (add_term _ _ _ 0 (by omega) _ _ _ r c).trans ?_
  rw [window_apply x0 1 (by omega), weight_apply x1 3 (by omega)]

theorem sum5_apply : sum5 x0 x1 px = sum4 x0 x1 px + ahead x0 r c 1 1 (by omega) (by omega) * x1 (ix4 (0 : Fin 1) (⟨4, by omega⟩ : Fin 9) r c) := by
  unfold sum5 k0_pay12
  refine (add_term _ _ _ 1 (by omega) _ _ _ r c).trans ?_
  rw [window_apply x0 1 (by omega), weight_apply x1 4 (by omega)]

theorem sum6_apply : sum6 x0 x1 px = sum5 x0 x1 px + ahead x0 r c 2 1 (by omega) (by omega) * x1 (ix4 (0 : Fin 1) (⟨5, by omega⟩ : Fin 9) r c) := by
  unfold sum6 k0_pay13
  refine (add_term _ _ _ 2 (by omega) _ _ _ r c).trans ?_
  rw [window_apply x0 1 (by omega), weight_apply x1 5 (by omega)]

theorem sum7_apply : sum7 x0 x1 px = sum6 x0 x1 px + ahead x0 r c 0 2 (by omega) (by omega) * x1 (ix4 (0 : Fin 1) (⟨6, by omega⟩ : Fin 9) r c) := by
  unfold sum7 k0_pay15 k0_pay14
  refine (add_term _ _ _ 0 (by omega) _ _ _ r c).trans ?_
  rw [window_apply x0 2 (by omega), weight_apply x1 6 (by omega)]

theorem sum8_apply : sum8 x0 x1 px = sum7 x0 x1 px + ahead x0 r c 1 2 (by omega) (by omega) * x1 (ix4 (0 : Fin 1) (⟨7, by omega⟩ : Fin 9) r c) := by
  unfold sum8 k0_pay16
  refine (add_term _ _ _ 1 (by omega) _ _ _ r c).trans ?_
  rw [window_apply x0 2 (by omega), weight_apply x1 7 (by omega)]

theorem sum9_apply : sum9 x0 x1 px = sum8 x0 x1 px + ahead x0 r c 2 2 (by omega) (by omega) * x1 (ix4 (0 : Fin 1) (⟨8, by omega⟩ : Fin 9) r c) := by
  unfold sum9 k0_pay1 k0_pay17
  refine (add_term _ _ _ 2 (by omega) _ _ _ r c).trans ?_
  rw [window_apply x0 2 (by omega), weight_apply x1 8 (by omega)]

end Steps

/-! ## The result of the body is the specification's sum -/

/-- When the body's input blocks are image `b` of the stack and that image's weights, its ninth partial sum at
    pixel `(r, c)` is the specification at `(b, 0, r, c)`: the same nine terms added to zero in the same order. -/
theorem sum9_eq_conv (x0 : Vec Ideal S1x1x512x512 .f32) (x1 : Vec Ideal S1x9x512x512 .f32)
    (ker : KerIdx → EReal) (img : ImgIdx → EReal) (b : Fin 16)
    (h0 : ∀ r c : Fin 512, x0 (ix4 (0 : Fin 1) (0 : Fin 1) r c) = img (ix4 b (0 : Fin 1) r c))
    (h1 : ∀ (t : Fin 9) (r c : Fin 512), x1 (ix4 (0 : Fin 1) t r c) = ker (ix4 b t r c)) (r c : Fin 512) :
    sum9 x0 x1 (ix4 (0 : Fin 1) (0 : Fin 1) r c) = conv ker img (ix4 b (0 : Fin 1) r c) := by
  rw [sum9_apply, sum8_apply, sum7_apply, sum6_apply, sum5_apply, sum4_apply, sum3_apply, sum2_apply, sum1_apply]
  simp only [ahead, scratch_apply x0 img b h0, h1]
  rfl

end Cert.PixelConv

end
-- ==== Proof.Blocks.lean ====
/-
  From what each grid point writes back to the whole result array.

  The grid has sixteen points, one per image. Point `t` stages image `t` of the stack (block `(t, 0, 0, 0)` of sizes
  `[1, 1, 512, 512]`), that image's nine weight planes (block `(t, 0, 0, 0)` of sizes `[1, 9, 512, 512]`), runs the
  body on them, and writes its output block back as block `(t, 0, 0, 0)` of the result. A block's entry
  `(0, 0, r, c)` is the array's entry `(t, 0, r, c)`; so what point `t` writes back is the specification's sum read
  through block `t`, the sixteen blocks cover the result array (entry `(b, 0, r, c)` lies in point `b`'s), and the
  array ends holding the specification's sum of the argument arrays.
-/
import proofs.«109072_j62045097558442_2_alg».proof.Proof.Gen.KernelIdeal.Value
import proofs.«109072_j62045097558442_2_alg».proof.Proof.KernelPoint

set_option maxRecDepth 16384

noncomputable section

namespace Cert.PixelConv

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three windows' block indices at point `t`, decided over the sixteen points: `(t, 0, 0, 0)` for each. -/
theorem index_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The result array as a function of the two argument arrays as the region finds them. -/
abbrev result (c : Dev nD) : S16x1x512x512.Idx → Elt Ideal .f32 :=
  conv (V m c main_arg0 : S16x9x512x512.Idx → EReal) (V m c main_arg1 : S16x1x512x512.Idx → EReal)

/-- What point `t` writes back is block `t` of the specification's sum. -/
theorem flushed_eq (c : Dev nD) (t : Fin cfg0.N) :
    (dats m 0 c).flushed 2 t = ((cfg0.win 2).blk t).view.read (Elt Ideal) (result m c) := by
  rw [Cert.KernelIdeal.Value.flushed2_A]
  show out0_A_2 c (grid0.coords t) (ms0_0 t) (hs0_0 t) (ms0_1 t) (hs0_1 t) (ms0_2 t) (hs0_2 t) scM0_0
      (Memref.isWhole_whole _) (iblk m c 0 t) (iblk m c 1 t) = _
  rw [out_eq_sum9]
  obtain ⟨⟨a0, a1, a2, a3⟩, ⟨b0, b1, b2, b3⟩, ⟨d0, d1, d2, d3⟩⟩ := index_facts t
  have ht : t.val < 16 := t.isLt
  funext j
  obtain ⟨z0, z1, r, cc, rfl⟩ : ∃ (z0 z1 : Fin 1) (r cc : Fin 512), j = ix4 z0 z1 r cc :=
    ⟨j 0, j 1, j 2, j 3, eq_ix4 j⟩
  obtain rfl : z0 = 0 := Subsingleton.elim _ _
  obtain rfl : z1 = 0 := Subsingleton.elim _ _
  refine (sum9_eq_conv (iblk m c 0 t) (iblk m c 1 t) (V m c main_arg0 : S16x9x512x512.Idx → EReal)
    (V m c main_arg1 : S16x1x512x512.Idx → EReal) (⟨t.val, ht⟩ : Fin 16) ?_ ?_ r cc).trans ?_
  · intro r' c'
    show V m c main_arg1 (((cfg0.win 0).blk t).view.emb (ix4 (0 : Fin 1) (0 : Fin 1) r' c')) = _
    refine congrArg _ (funext fun a => Fin.ext ?_)
    match a with
    | ⟨0, _⟩ => show win0_0.index t (0 : Fin 4) * 1 + 1 * 0 = t.val; omega
    | ⟨1, _⟩ => show win0_0.index t (1 : Fin 4) * 1 + 1 * 0 = 0; omega
    | ⟨2, _⟩ => show win0_0.index t (2 : Fin 4) * 512 + 1 * r'.val = r'.val; omega
    | ⟨3, _⟩ => show win0_0.index t (3 : Fin 4) * 512 + 1 * c'.val = c'.val; omega
  · intro t' r' c'
    show V m c main_arg0 (((cfg0.win 1).blk t).view.emb (ix4 (0 : Fin 1) t' r' c')) = _
    refine congrArg _ (funext fun a => Fin.ext ?_)
    match a with
    | ⟨0, _⟩ => show win0_1.index t (0 : Fin 4) * 1 + 1 * 0 = t.val; omega
    | ⟨1, _⟩ => show win0_1.index t (1 : Fin 4) * 9 + 1 * t'.val = t'.val; omega
    | ⟨2, _⟩ => show win0_1.index t (2 : Fin 4) * 512 + 1 * r'.val = r'.val; omega
    | ⟨3, _⟩ => show win0_1.index t (3 : Fin 4) * 512 + 1 * c'.val = c'.val; omega
  · show result m c _ = result m c (((cfg0.win 2).blk t).view.emb (ix4 (0 : Fin 1) (0 : Fin 1) r cc))
    refine congrArg _ (funext fun a => Fin.ext ?_)
    match a with
    | ⟨0, _⟩ => show t.val = win0_2.index t (0 : Fin 4) * 1 + 1 * 0; omega
    | ⟨1, _⟩ => show 0 = win0_2.index t (1 : Fin 4) * 1 + 1 * 0; omega
    | ⟨2, _⟩ => show r.val = win0_2.index t (2 : Fin 4) * 512 + 1 * r.val; omega
    | ⟨3, _⟩ => show cc.val = win0_2.index t (3 : Fin 4) * 512 + 1 * cc.val; omega

/-- An index of the result array is in point `t`'s block iff each coordinate is in the block's range on its axis. -/
theorem mem_block (t : Fin cfg0.N) (i : S16x1x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v0).slice (win0_2.rect t)).set ↔ _
  rw [View.set_slice_whole, Rect.mem_set_unit]
  exact Iff.rfl

/-- Every entry of the result array lies in some point's block: entry `(b, 0, r, c)` in point `b`'s. -/
theorem covered (i : S16x1x512x512.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 512 := (i 2).isLt
  have hi3 : (i 3).val < 512 := (i 3).isLt
  refine ⟨(⟨(i 0).val, hi0⟩ : Fin cfg0.N), flush0_2 _, ?_⟩
  obtain ⟨-, -, ⟨d0, d1, d2, d3⟩⟩ := index_facts (⟨(i 0).val, hi0⟩ : Fin cfg0.N)
  have d0' : win0_2.index (⟨(i 0).val, hi0⟩ : Fin cfg0.N) (0 : Fin 4) = (i 0).val := d0
  rw [mem_block]
  intro a
  match a with
  | ⟨0, _⟩ => show win0_2.index _ (0 : Fin 4) * 1 ≤ (i 0).val ∧ (i 0).val < win0_2.index _ (0 : Fin 4) * 1 + 1; omega
  | ⟨1, _⟩ => show win0_2.index _ (1 : Fin 4) * 1 ≤ (i 1).val ∧ (i 1).val < win0_2.index _ (1 : Fin 4) * 1 + 1; omega
  | ⟨2, _⟩ => show win0_2.index _ (2 : Fin 4) * 512 ≤ (i 2).val ∧ (i 2).val < win0_2.index _ (2 : Fin 4) * 512 + 512; omega
  | ⟨3, _⟩ => show win0_2.index _ (3 : Fin 4) * 512 ≤ (i 3).val ∧ (i 3).val < win0_2.index _ (3 : Fin 4) * 512 + 512; omega

/-- The result array after the run is the specification's sum of the argument arrays. -/
theorem final (c : Dev nD) : (dats m 0 c).arrAt 2 cfg0.N = result m c :=
  (dats m 0 c).arrAt_eq_of_cover 2 (result m c) (fun t _ => flushed_eq m c t) covered

/-- The kernel's run, read: the result array at the specification's sum of the argument arrays as launched, the
    arguments unchanged. -/
theorem kernel_run : θ_run defs (onTc (τ := τ) (main (F := Ideal))) ⟨m, fun _ => 0, ρ⟩ fun r => ∀ c : Dev nD,
      r.2.mem ((c : Thread nD τ).loc main_v0)
        = conv (m ((c : Thread nD τ).loc main_arg0) : S16x9x512x512.Idx → EReal) (m ((c : Thread nD τ).loc main_arg1) : S16x1x512x512.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PixelConv

end
-- ==== Proof.RefPoint.lean ====
/-
  The reference, read at one pixel, on the extended reals: it is the specification's sum.

  The reference pads the image stack with one ring of the value it converts from the integer 0 — the real 0 —,
  and adds to a tensor of zeros, for each of the nine weights in order, the 512 × 512 part of the padded stack that
  starts `dr` rows and `dc` columns in, times the weight's plane. A padded tensor read at an index is the image
  inside rows and columns `1 … 512` and the padding value elsewhere: the extended picture of the specification.
-/
import proofs.«109072_j62045097558442_2_alg».proof.Proof.Gen.ReferenceIdeal.Read
import proofs.«109072_j62045097558442_2_alg».proof.Proof.Spec
import Idealize.ShloMosaic.Lib.KernelVsHost
import Idealize.ShloMosaic.Lib.ValueIdx

set_option maxRecDepth 16384

noncomputable section

namespace Cert.PixelConv

open Cert.ReferenceIdeal Cert.ReferenceIdeal.Read
open Idealize.ShloMosaic Idealize.ShloMosaic.ValueIdx

/-- The padded image stack at an index is the specification's extended picture: inside rows and columns
    `1 … 512` the image one row and one column back, and elsewhere the padding value, the integer 0 as a float. -/
theorem picture_read (x1 : ImgIdx → EReal) (j : S16x1x514x514.Idx) :
    val_main_v0 (F := Ideal) x1 j = padded x1 (j 0) (j 2).val (j 3).val := by
  unfold val_main_v0
  have hv : ∀ k, val_main_call0_v0 (F := Ideal) k = 0 := fun k => by
    show (((0#32 : BitVec 32).toInt : ℝ) : EReal) = 0
    simp
  by_cases h : (1 ≤ (j 2).val ∧ (j 2).val < 513) ∧ (1 ≤ (j 3).val ∧ (j 3).val < 513)
  · refine (pad_apply_of_inside _ _ _ x1 _ _ _ j
      (ix4 (⟨(j 0).val, (j 0).isLt⟩ : Fin 16) (0 : Fin 1) (⟨(j 2).val - 1, by omega⟩ : Fin 512) (⟨(j 3).val - 1, by omega⟩ : Fin 512))
      (fun a => ?_)).trans (padded_inside x1 _ _ _ h.1 h.2).symm
    match a with
    | ⟨0, _⟩ => show (j 0).val = 0 + (j 0).val * (0 + 1); omega
    | ⟨1, _⟩ => show (j 1).val = 0 + 0 * (0 + 1); have h1 : (j 1).val < 1 := (j 1).isLt; omega
    | ⟨2, _⟩ => show (j 2).val = 1 + ((j 2).val - 1) * (0 + 1); omega
    | ⟨3, _⟩ => show (j 3).val = 1 + ((j 3).val - 1) * (0 + 1); omega
  · by_cases h2 : 1 ≤ (j 2).val ∧ (j 2).val < 513
    · have h3 : ¬(1 ≤ (j 3).val ∧ (j 3).val < 513) := fun h3 => h ⟨h2, h3⟩
      refine (pad_apply_of_not_inside _ _ _ x1 _ _ _ j (3 : Fin 4) (fun hin => h3 ?_)).trans
        ((hv _).trans (padded_outside x1 _ _ _ h).symm)
      have a1 : 1 ≤ (j 3).val := hin.1
      have a3 : ((j 3).val - 1) / (0 + 1) < 512 := hin.2.2
      simp only [Nat.zero_add, Nat.div_one] at a3
      omega
    · refine (pad_apply_of_not_inside _ _ _ x1 _ _ _ j (2 : Fin 4) (fun hin => h2 ?_)).trans
        ((hv _).trans (padded_outside x1 _ _ _ h).symm)
      have a1 : 1 ≤ (j 2).val := hin.1
      have a3 : ((j 2).val - 1) / (0 + 1) < 512 := hin.2.2
      simp only [Nat.zero_add, Nat.div_one] at a3
      omega

/-! ## The nine parts of the padded stack, and the nine weight planes, at pixel `(b, 0, r, c)` -/

theorem picture_v2 (x1 : ImgIdx → EReal) (b : Fin 16) (r c : Fin 512) :
    val_main_v0 (F := Ideal) x1 (idx_main_v2 (ix4 b (0 : Fin 1) r c)) = padded x1 b (0 + r.val) (0 + c.val) :=
  (picture_read x1 _).trans (padded_congr x1 rfl (Nat.zero_add _).symm (Nat.zero_add _).symm)

theorem picture_v6 (x1 : ImgIdx → EReal) (b : Fin 16) (r c : Fin 512) :
    val_main_v0 (F := Ideal) x1 (idx_main_v6 (ix4 b (0 : Fin 1) r c)) = padded x1 b (1 + r.val) (0 + c.val) :=
  (picture_read x1 _).trans (padded_congr x1 rfl rfl (Nat.zero_add _).symm)

theorem picture_v10 (x1 : ImgIdx → EReal) (b : Fin 16) (r c : Fin 512) :
    val_main_v0 (F := Ideal) x1 (idx_main_v10 (ix4 b (0 : Fin 1) r c)) = padded x1 b (2 + r.val) (0 + c.val) :=
  (picture_read x1 _).trans (padded_congr x1 rfl rfl (Nat.zero_add _).symm)

theorem picture_v14 (x1 : ImgIdx → EReal) (b : Fin 16) (r c : Fin 512) :
    val_main_v0 (F := Ideal) x1 (idx_main_v14 (ix4 b (0 : Fin 1) r c)) = padded x1 b (0 + r.val) (1 + c.val) :=
  (picture_read x1 _).trans (padded_congr x1 rfl (Nat.zero_add _).symm rfl)

theorem picture_v18 (x1 : ImgIdx → EReal) (b : Fin 16) (r c : Fin 512) :
    val_main_v0 (F := Ideal) x1 (idx_main_v18 (ix4 b (0 : Fin 1) r c)) = padded x1 b (1 + r.val) (1 + c.val) :=
  (picture_read x1 _).trans (padded_congr x1 rfl rfl rfl)

theorem picture_v22 (x1 : ImgIdx → EReal) (b : Fin 16) (r c : Fin 512) :
    val_main_v0 (F := Ideal) x1 (idx_main_v22 (ix4 b (0 : Fin 1) r c)) = padded x1 b (2 + r.val) (1 + c.val) :=
  (picture_read x1 _).trans (padded_congr x1 rfl rfl rfl)

theorem picture_v26 (x1 : ImgIdx → EReal) (b : Fin 16) (r c : Fin 512) :
    val_main_v0 (F := Ideal) x1 (idx_main_v26 (ix4 b (0 : Fin 1) r c)) = padded x1 b (0 + r.val) (2 + c.val) :=
  (picture_read x1 _).trans (padded_congr x1 rfl (Nat.zero_add _).symm rfl)

theorem picture_v30 (x1 : ImgIdx → EReal) (b : Fin 16) (r c : Fin 512) :
    val_main_v0 (F := Ideal) x1 (idx_main_v30 (ix4 b (0 : Fin 1) r c)) = padded x1 b (1 + r.val) (2 + c.val) :=
  (picture_read x1 _).trans (padded_congr x1 rfl rfl rfl)

theorem picture_v34 (x1 : ImgIdx → EReal) (b : Fin 16) (r c : Fin 512) :
    val_main_v0 (F := Ideal) x1 (idx_main_v34 (ix4 b (0 : Fin 1) r c)) = padded x1 b (2 + r.val) (2 + c.val) :=
  (picture_read x1 _).trans (padded_congr x1 rfl rfl rfl)

theorem plane_v3 (b : Fin 16) (r c : Fin 512) :
    idx_main_v3 (ix4 b (0 : Fin 1) r c) = ix4 b (0 : Fin 9) r c :=
  funext fun a => Fin.ext (by match a with | ⟨0, _⟩ => rfl | ⟨1, _⟩ => rfl | ⟨2, _⟩ => rfl | ⟨3, _⟩ => rfl)

theorem plane_v7 (b : Fin 16) (r c : Fin 512) :
    idx_main_v7 (ix4 b (0 : Fin 1) r c) = ix4 b (1 : Fin 9) r c :=
  funext fun a => Fin.ext (by match a with | ⟨0, _⟩ => rfl | ⟨1, _⟩ => rfl | ⟨2, _⟩ => rfl | ⟨3, _⟩ => rfl)

theorem plane_v11 (b : Fin 16) (r c : Fin 512) :
    idx_main_v11 (ix4 b (0 : Fin 1) r c) = ix4 b (2 : Fin 9) r c :=
  funext fun a => Fin.ext (by match a with | ⟨0, _⟩ => rfl | ⟨1, _⟩ => rfl | ⟨2, _⟩ => rfl | ⟨3, _⟩ => rfl)

theorem plane_v15 (b : Fin 16) (r c : Fin 512) :
    idx_main_v15 (ix4 b (0 : Fin 1) r c) = ix4 b (3 : Fin 9) r c :=
  funext fun a => Fin.ext (by match a with | ⟨0, _⟩ => rfl | ⟨1, _⟩ => rfl | ⟨2, _⟩ => rfl | ⟨3, _⟩ => rfl)

theorem plane_v19 (b : Fin 16) (r c : Fin 512) :
    idx_main_v19 (ix4 b (0 : Fin 1) r c) = ix4 b (4 : Fin 9) r c :=
  funext fun a => Fin.ext (by match a with | ⟨0, _⟩ => rfl | ⟨1, _⟩ => rfl | ⟨2, _⟩ => rfl | ⟨3, _⟩ => rfl)

theorem plane_v23 (b : Fin 16) (r c : Fin 512) :
    idx_main_v23 (ix4 b (0 : Fin 1) r c) = ix4 b (5 : Fin 9) r c :=
  funext fun a => Fin.ext (by match a with | ⟨0, _⟩ => rfl | ⟨1, _⟩ => rfl | ⟨2, _⟩ => rfl | ⟨3, _⟩ => rfl)

theorem plane_v27 (b : Fin 16) (r c : Fin 512) :
    idx_main_v27 (ix4 b (0 : Fin 1) r c) = ix4 b (6 : Fin 9) r c :=
  funext fun a => Fin.ext (by match a with | ⟨0, _⟩ => rfl | ⟨1, _⟩ => rfl | ⟨2, _⟩ => rfl | ⟨3, _⟩ => rfl)

theorem plane_v31 (b : Fin 16) (r c : Fin 512) :
    idx_main_v31 (ix4 b (0 : Fin 1) r c) = ix4 b (7 : Fin 9) r c :=
  funext fun a => Fin.ext (by match a with | ⟨0, _⟩ => rfl | ⟨1, _⟩ => rfl | ⟨2, _⟩ => rfl | ⟨3, _⟩ => rfl)

theorem plane_v35 (b : Fin 16) (r c : Fin 512) :
    idx_main_v35 (ix4 b (0 : Fin 1) r c) = ix4 b (8 : Fin 9) r c :=
  funext fun a => Fin.ext (by match a with | ⟨0, _⟩ => rfl | ⟨1, _⟩ => rfl | ⟨2, _⟩ => rfl | ⟨3, _⟩ => rfl)

/-- The reference's result is the specification's sum of the weights and the image stack. -/
theorem reference_eq_conv (x0 : KerIdx → EReal) (x1 : ImgIdx → EReal) : val_main_v37 (F := Ideal) x0 x1 = conv x0 x1 := by
  funext i
  obtain ⟨b, z, r, c, rfl⟩ : ∃ (b : Fin 16) (z : Fin 1) (r c : Fin 512), i = ix4 b z r c :=
    ⟨i 0, i 1, i 2, i 3, eq_ix4 i⟩
  obtain rfl : z = 0 := Subsingleton.elim _ _
  rw [val_main_v37_apply, val_main_v33_apply, val_main_v29_apply, val_main_v25_apply, val_main_v21_apply, val_main_v17_apply, val_main_v13_apply, val_main_v9_apply, val_main_v5_apply, val_main_v4_apply, val_main_v8_apply, val_main_v12_apply, val_main_v16_apply, val_main_v20_apply, val_main_v24_apply, val_main_v28_apply, val_main_v32_apply, val_main_v36_apply, val_main_v2_apply, val_main_v6_apply, val_main_v10_apply, val_main_v14_apply, val_main_v18_apply, val_main_v22_apply, val_main_v26_apply, val_main_v30_apply, val_main_v34_apply, val_main_v3_apply, val_main_v7_apply, val_main_v11_apply, val_main_v15_apply, val_main_v19_apply, val_main_v23_apply, val_main_v27_apply, val_main_v31_apply, val_main_v35_apply, val_main_v1_apply, val_main_cst_apply]
  rw [picture_v2, picture_v6, picture_v10, picture_v14, picture_v18, picture_v22, picture_v26, picture_v30, picture_v34, plane_v3, plane_v7, plane_v11, plane_v15, plane_v19, plane_v23, plane_v27, plane_v31, plane_v35]
  rw [Ideal.ofBits_def, Ideal.ofBits_zero_f32]
  rfl

end Cert.PixelConv

end
-- ==== Proof.lean ====
/-
  A convolution whose 3 × 3 weights differ from pixel to pixel, against its reference, on the extended reals.

  The inputs are sixteen 512 × 512 images and, for every pixel of every image, nine weights. Both programs extend
  each image by one ring of zeros and form at pixel `(r, c)` of image `b`

      out b r c = ((…((0 + P b (r+0) (c+0) · ker b 0 r c) + P b (r+1) (c+0) · ker b 1 r c) + …) + P b (r+2) (c+2) · ker b 8 r c,

  weight `3 · dc + dr` with the extended image's pixel `dr` rows and `dc` columns further — the kernel one image per
  grid point, through a scratch picture it zeroes, fills and reads back in three column windows; the reference on
  the whole stack at once, through a padded copy and nine shifted parts of it. The two add the nine products to
  zero in the same order and grouping, so the results agree entry by entry for all inputs, with no law of
  arithmetic used and without appeal to the inputs being finite. The kernel is printed at the ideal reading
  unchanged (no operation was rewritten), so there is nothing to show about its idealization.

  Spec.lean states the sum; KernelChain.lean and KernelPoint.lean read the kernel's body as that sum at one grid
  point; Blocks.lean puts the sixteen blocks together; RefPoint.lean reads the reference as the same sum.
-/
import proofs.«109072_j62045097558442_2_alg».proof.Defs
import proofs.«109072_j62045097558442_2_alg».proof.Proof.Gen.Kernel
import proofs.«109072_j62045097558442_2_alg».proof.Proof.Gen.Kernel.Skeleton
import proofs.«109072_j62045097558442_2_alg».proof.Proof.Gen.Kernel.Launch
import proofs.«109072_j62045097558442_2_alg».proof.Proof.Gen.Kernel.Points
import proofs.«109072_j62045097558442_2_alg».proof.Proof.Gen.Kernel.Frame
import proofs.«109072_j62045097558442_2_alg».proof.Proof.Gen.KernelIdeal
import proofs.«109072_j62045097558442_2_alg».proof.Proof.Gen.KernelIdeal.Skeleton
import proofs.«109072_j62045097558442_2_alg».proof.Proof.Gen.KernelIdeal.Launch
import proofs.«109072_j62045097558442_2_alg».proof.Proof.Gen.KernelIdeal.Points
import proofs.«109072_j62045097558442_2_alg».proof.Proof.Gen.KernelIdeal.Frame
import proofs.«109072_j62045097558442_2_alg».proof.Proof.Gen.KernelIdeal.Value
import proofs.«109072_j62045097558442_2_alg».proof.Proof.Gen.ReferenceIdeal
import proofs.«109072_j62045097558442_2_alg».proof.Proof.Gen.ReferenceIdeal.Run
import proofs.«109072_j62045097558442_2_alg».proof.Proof.Gen.ReferenceIdeal.Read
import proofs.«109072_j62045097558442_2_alg».proof.Proof.Gen.Pre_finite_inputs
import proofs.«109072_j62045097558442_2_alg».proof.Proof.Blocks
import proofs.«109072_j62045097558442_2_alg».proof.Proof.RefPoint
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernel_ideal [Cert.KernelIdeal.Facts] [Cert.Pre_finite_inputs.Facts] : Cert.frame_KernelIdeal :=
  fun m ρ _ => Cert.KernelIdeal.Gen.frame m ρ

/-- The reference runs to the end with its arguments unchanged: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the two arguments, the kernel's result array and the reference's both end at the
    sum of the specification, of the same weights and images. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.PixelConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.PixelConv.reference_eq_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
